-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩
abbrev S1x64 : Shape := ⟨2, ![1, 64]⟩
abbrev S100000x64 : Shape := ⟨2, ![100000, 64]⟩
abbrev S10000x64 : Shape := ⟨2, ![10000, 64]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x1, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x64, .f32⟩
  | .hbm, ⟨63, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v12) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S1600000x1, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x1, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The whole run of the kernel's program with its RESULT named.

  The program is six segments: a stretch of host operations (the first aggregation and the bias row), the first dense
  region, a second stretch (the second aggregation), the second region, a third stretch, the third region. The
  contents of every buffer at each of the seven boundaries are a fold through the program from the launch memory, and
  the run ends with every unscoped buffer at the last boundary's contents. Read at the result buffer this says: every
  weakly fair execution terminates, nothing faults, the result holds the last boundary's contents of that buffer, and
  the ten argument arrays hold what they were launched with (no host operation and no region writes an argument).
-/
import proofs.«176578_j19782619365925_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, and each argument array as launched. -/
theorem run : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Whole

end
-- ==== Proof.Payload.lean ====
/-
  The arithmetic of the three kernel bodies, read at one entry of a block.

  Each body loads a block of 10000 node rows (128 channels each), the layer's whole weight matrix and its bias as a
  `1 × e` row, and stores one value per entry of the block. At the exact (extended-real) reading of the floats:

  * rounding the two operands to a narrower format before the product is the identity;
  * the product into a zero accumulator, at `(p, q)`, is `∑ k < 128, rows (p, k) · weights (k, q)` — the accumulator's
    `0` drops out and the contraction index is its one coordinate;
  * the bias row broadcast over the block's rows reads, at `(p, q)`, the row's entry `(0, q)`;
  * `maximumf` against the splat zero is `max · 0`.

  So bodies 0 and 1 store `max ((∑ k, rows (p, k) · weights (k, q)) + bias (0, q)) 0` and body 2 the same without the `max`.
-/
import proofs.«176578_j19782619365925_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-! ### The operand indices of the 128 product -/

theorem lhs128_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs128_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs128_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs128_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's product into the zero accumulator, at row `p` and column `q`: the sum over the 128 contracted
    channels of the left operand's row `p` against the right operand's column `q`. -/
theorem product128_apply (a : FVec Ideal S10000x128 .bf16) (w : FVec Ideal S128x128 .bf16) (p : Fin 10000) (q : Fin 128) :
    matmul dot_S10000x128_S128x128_S10000x128_1_0_0_1_n_n none a w (constant S10000x128 .f32 0x00000000#32) (ix2 p q)
      = ∑ k : Fin 128, a (ix2 p k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun ax => Fin.ext (by
    match ax with
    | ⟨0, _⟩ => exact lhs128_0 _ _
    | ⟨1, _⟩ => exact (lhs128_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun ax => Fin.ext (by
    match ax with
    | ⟨0, _⟩ => exact (rhs128_0 _ _).trans hk
    | ⟨1, _⟩ => exact rhs128_1 _ _)
  rw [el, er]

/-! ### The operand indices of the 64 product -/

theorem lhs64_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs64_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs64_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs64_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block's product into the zero accumulator, at row `p` and column `q`: the sum over the 128 contracted
    channels of the left operand's row `p` against the right operand's column `q`. -/
theorem product64_apply (a : FVec Ideal S10000x128 .bf16) (w : FVec Ideal S128x64 .bf16) (p : Fin 10000) (q : Fin 64) :
    matmul dot_S10000x128_S128x64_S10000x64_1_0_0_1_n_n none a w (constant S10000x64 .f32 0x00000000#32) (ix2 p q)
      = ∑ k : Fin 128, a (ix2 p k) * w (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun ax => Fin.ext (by
    match ax with
    | ⟨0, _⟩ => exact lhs64_0 _ _
    | ⟨1, _⟩ => exact (lhs64_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun ax => Fin.ext (by
    match ax with
    | ⟨0, _⟩ => exact (rhs64_0 _ _).trans hk
    | ⟨1, _⟩ => exact rhs64_1 _ _)
  rw [el, er]

/-! ### The three bodies' stored values -/

/-- What body 0 stores, at row `p` and column `q` of its block: the inner product of the loaded node rows' row `p`
    with the weights' column `q`, plus the bias row's entry `q`, rectified. The change of format on the way into the
    product is the identity on extended reals, and the two same-shape casts are the identity. -/
theorem stored0_apply (x0 : Vec Ideal S10000x128 .f32) (x1 : Vec Ideal S128x128 .f32) (x2 : Vec Ideal S1x128 .f32)
    (p : Fin 10000) (q : Fin 128) :
    k0_pay1 (F := Ideal) x0 x1 x2 (ix2 p q)
      = max ((∑ k : Fin 128, x0 (ix2 p k) * x1 (ix2 k q)) + x2 (ix2 (0 : Fin 1) q)) 0 := by
  unfold k0_pay1
  refine congrArg₂ max (congrArg₂ (· + ·) ?_ ?_) Ideal.ofBits_zero_f32
  · refine (product128_apply _ _ p q).trans (Finset.sum_congr rfl fun k _ => ?_)
    show shapeCast S10000x128 x0 shapeCasts_S10000x128_S10000x128 (ix2 p k) * x1 (ix2 k q) = _
    rw [shapeCast_self]
  · refine (broadcastTo_1b_ab_apply _ broadcasts_S1x128_S10000x128 p q).trans ?_
    rw [shapeCast_self]

/-- What body 1 stores, at row `p` and column `q` of its block: the inner product of the loaded node rows' row `p`
    with the weights' column `q`, plus the bias row's entry `q`, rectified. The change of format on the way into the
    product is the identity on extended reals, and the two same-shape casts are the identity. -/
theorem stored1_apply (x0 : Vec Ideal S10000x128 .f32) (x1 : Vec Ideal S128x128 .f32) (x2 : Vec Ideal S1x128 .f32)
    (p : Fin 10000) (q : Fin 128) :
    k1_pay1 (F := Ideal) x0 x1 x2 (ix2 p q)
      = max ((∑ k : Fin 128, x0 (ix2 p k) * x1 (ix2 k q)) + x2 (ix2 (0 : Fin 1) q)) 0 := by
  unfold k1_pay1
  refine congrArg₂ max (congrArg₂ (· + ·) ?_ ?_) Ideal.ofBits_zero_f32
  · refine (product128_apply _ _ p q).trans (Finset.sum_congr rfl fun k _ => ?_)
    show shapeCast S10000x128 x0 shapeCasts_S10000x128_S10000x128 (ix2 p k) * x1 (ix2 k q) = _
    rw [shapeCast_self]
  · refine (broadcastTo_1b_ab_apply _ broadcasts_S1x128_S10000x128 p q).trans ?_
    rw [shapeCast_self]

/-- What body 2 stores, at row `p` and column `q` of its block: the inner product of the loaded node rows' row `p`
    with the weights' column `q`, plus the bias row's entry `q` (the last layer has no rectifier). -/
theorem stored2_apply (x0 : Vec Ideal S10000x128 .f32) (x1 : Vec Ideal S128x64 .f32) (x2 : Vec Ideal S1x64 .f32)
    (p : Fin 10000) (q : Fin 64) :
    k2_pay1 (F := Ideal) x0 x1 x2 (ix2 p q)
      = (∑ k : Fin 128, x0 (ix2 p k) * x1 (ix2 k q)) + x2 (ix2 (0 : Fin 1) q) := by
  unfold k2_pay1
  refine congrArg₂ (· + ·) ?_ ?_
  · refine (product64_apply _ _ p q).trans (Finset.sum_congr rfl fun k _ => ?_)
    show shapeCast S10000x128 x0 shapeCasts_S10000x128_S10000x128 (ix2 p k) * x1 (ix2 k q) = _
    rw [shapeCast_self]
  · refine (broadcastTo_1b_ab_apply _ broadcasts_S1x64_S10000x64 p q).trans ?_
    rw [shapeCast_self]

end Cert.KernelIdeal.Body

end
-- ==== Proof.Layer.lean ====
/-
  One layer of the graph network as a function of whole arrays over the extended reals.

  A layer takes the aggregated node features `x` (100000 nodes, 128 channels), a weight matrix `W` (128 input
  channels, `e` output channels) and a bias `b` (one entry per output channel). At node `p` and output channel `q` the
  affine part is the inner product of row `p` of `x` with column `q` of `W`, plus `b q`:

      affine x W b (p, q) = (∑ k < 128, x (p, k) · W (k, q)) + b q.

  The first two layers follow it by the rectifier `max · 0`; the last does not. On the extended reals `+` and `·` are
  total, and nothing below moves a factor across a sum or cancels anything, so no statement here asks its arguments to
  be finite.

  The bias reaches the computation in two spellings: as the one-dimensional array itself, and as a `1 × e` row whose
  entry `(0, q)` is `b q`. `affineRow` is the second reading; `affineRow_eq` says the two are one function as soon as
  the row's entries are the array's.
-/
import Idealize.ShloMosaic.Lib.ValueIdx
import Idealize.ShloMosaic.PureOps.Ideal.Laws

noncomputable section

open scoped BigOperators
open Idealize.ShloMosaic Idealize.ShloMosaic.ValueIdx

namespace Cert.Layer

/-- The affine part of a layer with the bias a one-dimensional array: at `(p, q)`, row `p` of `x` against column `q`
    of `W`, plus `b q`. -/
def affine {e : Nat} (x : FVec Ideal ⟨2, ![100000, 128]⟩ .f32) (W : FVec Ideal ⟨2, ![128, e]⟩ .f32)
    (b : FVec Ideal ⟨1, ![e]⟩ .f32) : FVec Ideal ⟨2, ![100000, e]⟩ .f32 :=
  fun i => (∑ k : Fin 128, x (ix2 (i 0) k) * W (ix2 k (i 1))) + b (ix1 (i 1))

/-- The same with the bias a `1 × e` row, read at `(0, q)`. -/
def affineRow {e : Nat} (x : FVec Ideal ⟨2, ![100000, 128]⟩ .f32) (W : FVec Ideal ⟨2, ![128, e]⟩ .f32)
    (b : FVec Ideal ⟨2, ![1, e]⟩ .f32) : FVec Ideal ⟨2, ![100000, e]⟩ .f32 :=
  fun i => (∑ k : Fin 128, x (ix2 (i 0) k) * W (ix2 k (i 1))) + b (ix2 (0 : Fin 1) (i 1))

/-- The rectifier, entry by entry: `max y 0`. -/
def relu {s : Shape} (y : FVec Ideal s .f32) : FVec Ideal s .f32 := fun i => max (y i) 0

/-- The three definitions read at an index given by its two coordinates. -/
theorem affine_apply {e : Nat} (x : FVec Ideal ⟨2, ![100000, 128]⟩ .f32) (W : FVec Ideal ⟨2, ![128, e]⟩ .f32)
    (b : FVec Ideal ⟨1, ![e]⟩ .f32) (p : Fin 100000) (q : Fin e) :
    affine x W b (ix2 p q) = (∑ k : Fin 128, x (ix2 p k) * W (ix2 k q)) + b (ix1 q) := rfl
theorem affineRow_apply {e : Nat} (x : FVec Ideal ⟨2, ![100000, 128]⟩ .f32) (W : FVec Ideal ⟨2, ![128, e]⟩ .f32)
    (b : FVec Ideal ⟨2, ![1, e]⟩ .f32) (p : Fin 100000) (q : Fin e) :
    affineRow x W b (ix2 p q) = (∑ k : Fin 128, x (ix2 p k) * W (ix2 k q)) + b (ix2 (0 : Fin 1) q) := rfl
theorem relu_apply {s : Shape} (y : FVec Ideal s .f32) (i : s.Idx) : relu y i = max (y i) 0 := rfl

/-- A row whose entry `(0, q)` is `b q` gives the same affine map as `b` itself. -/
theorem affineRow_eq {e : Nat} (x : FVec Ideal ⟨2, ![100000, 128]⟩ .f32) (W : FVec Ideal ⟨2, ![128, e]⟩ .f32)
    (b2 : FVec Ideal ⟨2, ![1, e]⟩ .f32) (b : FVec Ideal ⟨1, ![e]⟩ .f32)
    (hb : ∀ q : Fin e, b2 (ix2 (0 : Fin 1) q) = b (ix1 q)) : affineRow x W b2 = affine x W b := by
  funext i
  obtain ⟨p, q, rfl⟩ : ∃ (p : Fin 100000) (q : Fin e), i = ix2 p q := ⟨i 0, i 1, eq_ix2 i⟩
  rw [affineRow_apply, affine_apply, hb]

end Cert.Layer

end
-- ==== Proof.Region0.lean ====
/-
  Region 0 of the kernel's program (layer 1's dense stage), as one function of the arrays the region finds.

  The region runs over a grid of 10 points. Point `t` fetches rows `10000·t … 10000·t + 9999` of the aggregated
  features, the layer's whole weight matrix and its whole bias row (the same block at every point), and writes back rows
  `10000·t … 10000·t + 9999` of the result. Entry `(p, q)` of what point `t` writes is, by the body's arithmetic, the
  layer's value at node `10000·t + p` and channel `q`: a row of the result depends only on the same row of the
  features, so each written block is the restriction of ONE whole-array function, `relu (affineRow x W b)`.
  Every node row lies in exactly one point's block (the point `node / 10000`), so after the ten write-backs the result
  array holds that function everywhere. This is stated for whatever contents `V` the region is entered with.
-/
import proofs.«176578_j19782619365925_1_alg».proof.Proof.Gen.KernelIdeal.Frame
import proofs.«176578_j19782619365925_1_alg».proof.Proof.Payload
import proofs.«176578_j19782619365925_1_alg».proof.Proof.Layer
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Layer

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the features' and the result's block index is `(t, 0)`; the weights'
    and the bias row's is `(0, 0)` at every point. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t`: entry `(p, k)` is the features array at node `10000·t + p`, channel `k`. -/
theorem rows_block (c : Dev nD) (t : Fin cfg0.N) (p : Fin 10000) (k : Fin 128) (i : S100000x128.Idx)
    (hi0 : (i 0).val = 10000 * t.val + p.val) (hi1 : (i 1).val = k.val) :
    (iblk0 V c 0 t : Vec Ideal S10000x128 .f32) (ix2 p k) = (V c main_v12 : S100000x128.Idx → EReal) i := by
  obtain ⟨e0, e1, -⟩ := block_indices t
  unfold iblk0
  rw [View.read_apply]
  show V c main_v12 _ = V c main_v12 _
  congr 1
  funext a
  apply Fin.ext
  match a with
  | ⟨0, _⟩ => show win0_0.index t 0 * 10000 + 1 * p.val = (i 0).val; rw [e0, hi0]; omega
  | ⟨1, _⟩ => show win0_0.index t 1 * 128 + 1 * k.val = (i 1).val; rw [e1, hi1]; omega

/-- The weights' block at every point is the whole weight matrix. -/
theorem weights_block (c : Dev nD) (t : Fin cfg0.N) (k : Fin 128) (q : Fin 128) :
    (iblk0 V c 1 t : Vec Ideal S128x128 .f32) (ix2 k q) = (V c main_arg4 : S128x128.Idx → EReal) (ix2 k q) := by
  obtain ⟨-, -, e2, e3, -⟩ := block_indices t
  unfold iblk0
  rw [View.read_apply]
  show V c main_arg4 _ = V c main_arg4 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- The bias row's block at every point is the whole row. -/
theorem bias_block (c : Dev nD) (t : Fin cfg0.N) (q : Fin 128) :
    (iblk0 V c 2 t : Vec Ideal S1x128 .f32) (ix2 (0 : Fin 1) q) = (V c main_v13 : S1x128.Idx → EReal) (ix2 (0 : Fin 1) q) := by
  obtain ⟨-, -, -, -, e4, e5, -⟩ := block_indices t
  unfold iblk0
  rw [View.read_apply]
  show V c main_v13 _ = V c main_v13 _
  congr 1
  funext a
  apply Fin.ext
  match a with
  | ⟨0, _⟩ => show win0_2.index t 0 * 1 + 1 * 0 = 0; rw [e4]
  | ⟨1, _⟩ => show win0_2.index t 1 * 128 + 1 * q.val = q.val; rw [e5]; omega

/-- ONE ENTRY of what a point stores, over plain arrays: if the loaded rows are rows `10000·s + p` of `A`, the loaded
    weights are `W` and the loaded bias row is `B`, then the stored entry `y` is the layer's value at the array index
    `i` whose node is `10000·s + (y's row)` and whose channel is `y`'s. -/
theorem stored_entry (x0 : Vec Ideal S10000x128 .f32) (x1 : Vec Ideal S128x128 .f32) (x2 : Vec Ideal S1x128 .f32)
    (A : FVec Ideal ⟨2, ![100000, 128]⟩ .f32) (W : FVec Ideal ⟨2, ![128, 128]⟩ .f32) (B : FVec Ideal ⟨2, ![1, 128]⟩ .f32)
    (s : Nat)
    (h0 : ∀ (p : Fin 10000) (k : Fin 128) (i : (⟨2, ![100000, 128]⟩ : Shape).Idx), (i 0).val = 10000 * s + p.val → (i 1).val = k.val → x0 (ix2 p k) = A i)
    (h1 : ∀ (k : Fin 128) (q : Fin 128), x1 (ix2 k q) = W (ix2 k q))
    (h2 : ∀ q : Fin 128, x2 (ix2 (0 : Fin 1) q) = B (ix2 (0 : Fin 1) q))
    (y : S10000x128.Idx) (i : (⟨2, ![100000, 128]⟩ : Shape).Idx)
    (hi0 : (i 0).val = 10000 * s + (y 0).val) (hi1 : (i 1).val = (y 1).val) :
    k0_pay1 (F := Ideal) x0 x1 x2 y = relu (affineRow A W B) i := by
  obtain ⟨p, q, rfl⟩ : ∃ (p : Fin 10000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have hp : p'.val = 10000 * s + p.val := hi0
  obtain rfl : q' = q := Fin.ext hi1
  rw [Body.stored0_apply, relu_apply, affineRow_apply, h2]
  refine congrArg (fun z => max (z + B (ix2 (0 : Fin 1) q')) 0) ?_
  refine Finset.sum_congr rfl fun k _ => ?_
  rw [h0 p k (ix2 p' k) hp rfl, h1]

/-- WHAT POINT `t` WRITES BACK is block `t` of the layer's whole-array function of the arrays the region found. -/
theorem flushed_eq (c : Dev nD) (t : Fin cfg0.N) :
    (dat0 V c).flushed 3 t = ((cfg0.win 3).blk t).view.read (Elt Ideal) (relu (affineRow (V c main_v12) (V c main_arg4) (V c main_v13))) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S128x128) zero_offsets, View.ld_unit_zero (S := S1x128) zero_offsets]
  obtain ⟨-, -, -, -, -, -, e6, e7⟩ := block_indices t
  funext y
  refine stored_entry (iblk0 V c 0 t) (iblk0 V c 1 t) (iblk0 V c 2 t) (V c main_v12) (V c main_arg4) (V c main_v13) t.val
    (fun p k i hi0 hi1 => rows_block V c t p k i hi0 hi1) (fun k q => weights_block V c t k q) (fun q => bias_block V c t q)
    y (((cfg0.win 3).blk t).view.emb y) ?_ ?_
  · show win0_3.index t 0 * 10000 + 1 * (y 0).val = 10000 * t.val + (y 0).val; rw [e6]; omega
  · show win0_3.index t 1 * 128 + 1 * (y 1).val = (y 1).val; rw [e7]; omega

/-- An index of the result array is in point `t`'s block iff each coordinate is in the block's range on its axis. -/
theorem mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v14).slice (win0_3.rect t)).set ↔ _
  rw [View.set_slice_whole, Rect.mem_set_unit]
  exact Iff.rfl

/-- Every index of the result array is in the block of the point `node / 10000`, which writes back. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  have ht : (i 0).val / 10000 < cfg0.N := by rw [hN]; omega
  refine ⟨⟨(i 0).val / 10000, ht⟩, flush0_3 _, ?_⟩
  rw [mem_block]
  obtain ⟨-, -, -, -, -, -, e6, e7⟩ := block_indices ⟨(i 0).val / 10000, ht⟩
  intro a
  match a with
  | ⟨0, _⟩ =>
    show win0_3.index ⟨(i 0).val / 10000, ht⟩ 0 * 10000 ≤ (i 0).val ∧ (i 0).val < win0_3.index ⟨(i 0).val / 10000, ht⟩ 0 * 10000 + 10000
    rw [e6]; show (i 0).val / 10000 * 10000 ≤ (i 0).val ∧ (i 0).val < (i 0).val / 10000 * 10000 + 10000; omega
  | ⟨1, _⟩ =>
    show win0_3.index ⟨(i 0).val / 10000, ht⟩ 1 * 128 ≤ (i 1).val ∧ (i 1).val < win0_3.index ⟨(i 0).val / 10000, ht⟩ 1 * 128 + 128
    rw [e7]; omega

/-- THE RESULT ARRAY after the region: the layer's function of the arrays the region found. -/
theorem result (c : Dev nD) : (dat0 V c).arrAt 3 cfg0.N = relu (affineRow (V c main_v12) (V c main_arg4) (V c main_v13)) :=
  (dat0 V c).arrAt_eq_of_cover 3 _ (fun t _ => flushed_eq V c t) covered

end Cert.KernelIdeal.Region0

end
-- ==== Proof.Region1.lean ====
/-
  Region 1 of the kernel's program (layer 2's dense stage), as one function of the arrays the region finds.

  The region runs over a grid of 10 points. Point `t` fetches rows `10000·t … 10000·t + 9999` of the aggregated
  features, the layer's whole weight matrix and its whole bias row (the same block at every point), and writes back rows
  `10000·t … 10000·t + 9999` of the result. Entry `(p, q)` of what point `t` writes is, by the body's arithmetic, the
  layer's value at node `10000·t + p` and channel `q`: a row of the result depends only on the same row of the
  features, so each written block is the restriction of ONE whole-array function, `relu (affineRow x W b)`.
  Every node row lies in exactly one point's block (the point `node / 10000`), so after the ten write-backs the result
  array holds that function everywhere. This is stated for whatever contents `V` the region is entered with.
-/
import proofs.«176578_j19782619365925_1_alg».proof.Proof.Gen.KernelIdeal.Frame
import proofs.«176578_j19782619365925_1_alg».proof.Proof.Payload
import proofs.«176578_j19782619365925_1_alg».proof.Proof.Layer
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Layer

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the features' and the result's block index is `(t, 0)`; the weights'
    and the bias row's is `(0, 0)` at every point. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point `t`: entry `(p, k)` is the features array at node `10000·t + p`, channel `k`. -/
theorem rows_block (c : Dev nD) (t : Fin cfg1.N) (p : Fin 10000) (k : Fin 128) (i : S100000x128.Idx)
    (hi0 : (i 0).val = 10000 * t.val + p.val) (hi1 : (i 1).val = k.val) :
    (iblk1 V c 0 t : Vec Ideal S10000x128 .f32) (ix2 p k) = (V c main_v27 : S100000x128.Idx → EReal) i := by
  obtain ⟨e0, e1, -⟩ := block_indices t
  unfold iblk1
  rw [View.read_apply]
  show V c main_v27 _ = V c main_v27 _
  congr 1
  funext a
  apply Fin.ext
  match a with
  | ⟨0, _⟩ => show win1_0.index t 0 * 10000 + 1 * p.val = (i 0).val; rw [e0, hi0]; omega
  | ⟨1, _⟩ => show win1_0.index t 1 * 128 + 1 * k.val = (i 1).val; rw [e1, hi1]; omega

/-- The weights' block at every point is the whole weight matrix. -/
theorem weights_block (c : Dev nD) (t : Fin cfg1.N) (k : Fin 128) (q : Fin 128) :
    (iblk1 V c 1 t : Vec Ideal S128x128 .f32) (ix2 k q) = (V c main_arg6 : S128x128.Idx → EReal) (ix2 k q) := by
  obtain ⟨-, -, e2, e3, -⟩ := block_indices t
  unfold iblk1
  rw [View.read_apply]
  show V c main_arg6 _ = V c main_arg6 _
  congr 1
  funext a
  apply Fin.ext
  match a with
  | ⟨0, _⟩ => show win1_1.index t 0 * 128 + 1 * k.val = k.val; rw [e2]; omega
  | ⟨1, _⟩ => show win1_1.index t 1 * 128 + 1 * q.val = q.val; rw [e3]; omega

/-- The bias row's block at every point is the whole row. -/
theorem bias_block (c : Dev nD) (t : Fin cfg1.N) (q : Fin 128) :
    (iblk1 V c 2 t : Vec Ideal S1x128 .f32) (ix2 (0 : Fin 1) q) = (V c main_v28 : S1x128.Idx → EReal) (ix2 (0 : Fin 1) q) := by
  obtain ⟨-, -, -, -, e4, e5, -⟩ := block_indices t
  unfold iblk1
  rw [View.read_apply]
  show V c main_v28 _ = V c main_v28 _
  congr 1
  funext a
  apply Fin.ext
  match a with
  | ⟨0, _⟩ => show win1_2.index t 0 * 1 + 1 * 0 = 0; rw [e4]
  | ⟨1, _⟩ => show win1_2.index t 1 * 128 + 1 * q.val = q.val; rw [e5]; omega

/-- ONE ENTRY of what a point stores, over plain arrays: if the loaded rows are rows `10000·s + p` of `A`, the loaded
    weights are `W` and the loaded bias row is `B`, then the stored entry `y` is the layer's value at the array index
    `i` whose node is `10000·s + (y's row)` and whose channel is `y`'s. -/
theorem stored_entry (x0 : Vec Ideal S10000x128 .f32) (x1 : Vec Ideal S128x128 .f32) (x2 : Vec Ideal S1x128 .f32)
    (A : FVec Ideal ⟨2, ![100000, 128]⟩ .f32) (W : FVec Ideal ⟨2, ![128, 128]⟩ .f32) (B : FVec Ideal ⟨2, ![1, 128]⟩ .f32)
    (s : Nat)
    (h0 : ∀ (p : Fin 10000) (k : Fin 128) (i : (⟨2, ![100000, 128]⟩ : Shape).Idx), (i 0).val = 10000 * s + p.val → (i 1).val = k.val → x0 (ix2 p k) = A i)
    (h1 : ∀ (k : Fin 128) (q : Fin 128), x1 (ix2 k q) = W (ix2 k q))
    (h2 : ∀ q : Fin 128, x2 (ix2 (0 : Fin 1) q) = B (ix2 (0 : Fin 1) q))
    (y : S10000x128.Idx) (i : (⟨2, ![100000, 128]⟩ : Shape).Idx)
    (hi0 : (i 0).val = 10000 * s + (y 0).val) (hi1 : (i 1).val = (y 1).val) :
    k1_pay1 (F := Ideal) x0 x1 x2 y = relu (affineRow A W B) i := by
  obtain ⟨p, q, rfl⟩ : ∃ (p : Fin 10000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have hp : p'.val = 10000 * s + p.val := hi0
  obtain rfl : q' = q := Fin.ext hi1
  rw [Body.stored1_apply, relu_apply, affineRow_apply, h2]
  refine congrArg (fun z => max (z + B (ix2 (0 : Fin 1) q')) 0) ?_
  refine Finset.sum_congr rfl fun k _ => ?_
  rw [h0 p k (ix2 p' k) hp rfl, h1]

/-- WHAT POINT `t` WRITES BACK is block `t` of the layer's whole-array function of the arrays the region found. -/
theorem flushed_eq (c : Dev nD) (t : Fin cfg1.N) :
    (dat1 V c).flushed 3 t = ((cfg1.win 3).blk t).view.read (Elt Ideal) (relu (affineRow (V c main_v27) (V c main_arg6) (V c main_v28))) := by
  show (cfg1.win 3).cut (grid1.coords t) ((dat1 V c).after 3 t) = _
  rw [after1_3]
  unfold out1_3
  rw [View.canon_unit_zero zero_offsets]
  simp only [View.ld_unit_zero (S := S10000x128) zero_offsets, View.ld_unit_zero (S := S128x128) zero_offsets, View.ld_unit_zero (S := S1x128) zero_offsets]
  obtain ⟨-, -, -, -, -, -, e6, e7⟩ := block_indices t
  funext y
  refine stored_entry (iblk1 V c 0 t) (iblk1 V c 1 t) (iblk1 V c 2 t) (V c main_v27) (V c main_arg6) (V c main_v28) t.val
    (fun p k i hi0 hi1 => rows_block V c t p k i hi0 hi1) (fun k q => weights_block V c t k q) (fun q => bias_block V c t q)
    y (((cfg1.win 3).blk t).view.emb y) ?_ ?_
  · show win1_3.index t 0 * 10000 + 1 * (y 0).val = 10000 * t.val + (y 0).val; rw [e6]; omega
  · show win1_3.index t 1 * 128 + 1 * (y 1).val = (y 1).val; rw [e7]; omega

/-- An index of the result array is in point `t`'s block iff each coordinate is in the block's range on its axis. -/
theorem mem_block (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v29).slice (win1_3.rect t)).set ↔ _
  rw [View.set_slice_whole, Rect.mem_set_unit]
  exact Iff.rfl

/-- Every index of the result array is in the block of the point `node / 10000`, which writes back. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  have ht : (i 0).val / 10000 < cfg1.N := by rw [hN]; omega
  refine ⟨⟨(i 0).val / 10000, ht⟩, flush1_3 _, ?_⟩
  rw [mem_block]
  obtain ⟨-, -, -, -, -, -, e6, e7⟩ := block_indices ⟨(i 0).val / 10000, ht⟩
  intro a
  match a with
  | ⟨0, _⟩ =>
    show win1_3.index ⟨(i 0).val / 10000, ht⟩ 0 * 10000 ≤ (i 0).val ∧ (i 0).val < win1_3.index ⟨(i 0).val / 10000, ht⟩ 0 * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ 1 * 128 ≤ (i 1).val ∧ (i 1).val < win1_3.index ⟨(i 0).val / 10000, ht⟩ 1 * 128 + 128
    rw [e7]; omega

/-- THE RESULT ARRAY after the region: the layer's function of the arrays the region found. -/
theorem result (c : Dev nD) : (dat1 V c).arrAt 3 cfg1.N = relu (affineRow (V c main_v27) (V c main_arg6) (V c main_v28)) :=
  (dat1 V c).arrAt_eq_of_cover 3 _ (fun t _ => flushed_eq V c t) covered

end Cert.KernelIdeal.Region1

end
-- ==== Proof.Region2.lean ====
/-
  Region 2 of the kernel's program (layer 3's dense stage), as one function of the arrays the region finds.

  The region runs over a grid of 10 points. Point `t` fetches rows `10000·t … 10000·t + 9999` of the aggregated
  features, the layer's whole weight matrix and its whole bias row (the same block at every point), and writes back rows
  `10000·t … 10000·t + 9999` of the result. Entry `(p, q)` of what point `t` writes is, by the body's arithmetic, the
  layer's value at node `10000·t + p` and channel `q`: a row of the result depends only on the same row of the
  features, so each written block is the restriction of ONE whole-array function, `affineRow x W b`.
  Every node row lies in exactly one point's block (the point `node / 10000`), so after the ten write-backs the result
  array holds that function everywhere. This is stated for whatever contents `V` the region is entered with.
-/
import proofs.«176578_j19782619365925_1_alg».proof.Proof.Gen.KernelIdeal.Frame
import proofs.«176578_j19782619365925_1_alg».proof.Proof.Payload
import proofs.«176578_j19782619365925_1_alg».proof.Proof.Layer
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Layer

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the features' and the result's block index is `(t, 0)`; the weights'
    and the bias row's is `(0, 0)` at every point. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The features' block at point `t`: entry `(p, k)` is the features array at node `10000·t + p`, channel `k`. -/
theorem rows_block (c : Dev nD) (t : Fin cfg2.N) (p : Fin 10000) (k : Fin 128) (i : S100000x128.Idx)
    (hi0 : (i 0).val = 10000 * t.val + p.val) (hi1 : (i 1).val = k.val) :
    (iblk2 V c 0 t : Vec Ideal S10000x128 .f32) (ix2 p k) = (V c main_v42 : S100000x128.Idx → EReal) i := by
  obtain ⟨e0, e1, -⟩ := block_indices t
  unfold iblk2
  rw [View.read_apply]
  show V c main_v42 _ = V c main_v42 _
  congr 1
  funext a
  apply Fin.ext
  match a with
  | ⟨0, _⟩ => show win2_0.index t 0 * 10000 + 1 * p.val = (i 0).val; rw [e0, hi0]; omega
  | ⟨1, _⟩ => show win2_0.index t 1 * 128 + 1 * k.val = (i 1).val; rw [e1, hi1]; omega

/-- The weights' block at every point is the whole weight matrix. -/
theorem weights_block (c : Dev nD) (t : Fin cfg2.N) (k : Fin 128) (q : Fin 64) :
    (iblk2 V c 1 t : Vec Ideal S128x64 .f32) (ix2 k q) = (V c main_arg8 : S128x64.Idx → EReal) (ix2 k q) := by
  obtain ⟨-, -, e2, e3, -⟩ := block_indices t
  unfold iblk2
  rw [View.read_apply]
  show V c main_arg8 _ = V c main_arg8 _
  congr 1
  funext a
  apply Fin.ext
  match a with
  | ⟨0, _⟩ => show win2_1.index t 0 * 128 + 1 * k.val = k.val; rw [e2]; omega
  | ⟨1, _⟩ => show win2_1.index t 1 * 64 + 1 * q.val = q.val; rw [e3]; omega

/-- The bias row's block at every point is the whole row. -/
theorem bias_block (c : Dev nD) (t : Fin cfg2.N) (q : Fin 64) :
    (iblk2 V c 2 t : Vec Ideal S1x64 .f32) (ix2 (0 : Fin 1) q) = (V c main_v43 : S1x64.Idx → EReal) (ix2 (0 : Fin 1) q) := by
  obtain ⟨-, -, -, -, e4, e5, -⟩ := block_indices t
  unfold iblk2
  rw [View.read_apply]
  show V c main_v43 _ = V c main_v43 _
  congr 1
  funext a
  apply Fin.ext
  match a with
  | ⟨0, _⟩ => show win2_2.index t 0 * 1 + 1 * 0 = 0; rw [e4]
  | ⟨1, _⟩ => show win2_2.index t 1 * 64 + 1 * q.val = q.val; rw [e5]; omega

/-- ONE ENTRY of what a point stores, over plain arrays: if the loaded rows are rows `10000·s + p` of `A`, the loaded
    weights are `W` and the loaded bias row is `B`, then the stored entry `y` is the layer's value at the array index
    `i` whose node is `10000·s + (y's row)` and whose channel is `y`'s. -/
theorem stored_entry (x0 : Vec Ideal S10000x128 .f32) (x1 : Vec Ideal S128x64 .f32) (x2 : Vec Ideal S1x64 .f32)
    (A : FVec Ideal ⟨2, ![100000, 128]⟩ .f32) (W : FVec Ideal ⟨2, ![128, 64]⟩ .f32) (B : FVec Ideal ⟨2, ![1, 64]⟩ .f32)
    (s : Nat)
    (h0 : ∀ (p : Fin 10000) (k : Fin 128) (i : (⟨2, ![100000, 128]⟩ : Shape).Idx), (i 0).val = 10000 * s + p.val → (i 1).val = k.val → x0 (ix2 p k) = A i)
    (h1 : ∀ (k : Fin 128) (q : Fin 64), x1 (ix2 k q) = W (ix2 k q))
    (h2 : ∀ q : Fin 64, x2 (ix2 (0 : Fin 1) q) = B (ix2 (0 : Fin 1) q))
    (y : S10000x64.Idx) (i : (⟨2, ![100000, 64]⟩ : Shape).Idx)
    (hi0 : (i 0).val = 10000 * s + (y 0).val) (hi1 : (i 1).val = (y 1).val) :
    k2_pay1 (F := Ideal) x0 x1 x2 y = affineRow A W B i := by
  obtain ⟨p, q, rfl⟩ : ∃ (p : Fin 10000) (q : Fin 64), y = ix2 p q := ⟨y 0, y 1, eq_ix2 y⟩
  obtain ⟨p', q', rfl⟩ : ∃ (p' : Fin 100000) (q' : Fin 64), i = ix2 p' q' := ⟨i 0, i 1, eq_ix2 i⟩
  have hp : p'.val = 10000 * s + p.val := hi0
  obtain rfl : q' = q := Fin.ext hi1
  rw [Body.stored2_apply, affineRow_apply, h2]
  refine congrArg (fun z => z + B (ix2 (0 : Fin 1) q')) ?_
  refine Finset.sum_congr rfl fun k _ => ?_
  rw [h0 p k (ix2 p' k) hp rfl, h1]

/-- WHAT POINT `t` WRITES BACK is block `t` of the layer's whole-array function of the arrays the region found. -/
theorem flushed_eq (c : Dev nD) (t : Fin cfg2.N) :
    (dat2 V c).flushed 3 t = ((cfg2.win 3).blk t).view.read (Elt Ideal) (affineRow (V c main_v42) (V c main_arg8) (V c main_v43)) := by
  show (cfg2.win 3).cut (grid2.coords t) ((dat2 V c).after 3 t) = _
  rw [after2_3]
  unfold out2_3
  rw [View.canon_unit_zero zero_offsets]
  simp only [View.ld_unit_zero (S := S10000x128) zero_offsets, View.ld_unit_zero (S := S128x64) zero_offsets, View.ld_unit_zero (S := S1x64) zero_offsets]
  obtain ⟨-, -, -, -, -, -, e6, e7⟩ := block_indices t
  funext y
  refine stored_entry (iblk2 V c 0 t) (iblk2 V c 1 t) (iblk2 V c 2 t) (V c main_v42) (V c main_arg8) (V c main_v43) t.val
    (fun p k i hi0 hi1 => rows_block V c t p k i hi0 hi1) (fun k q => weights_block V c t k q) (fun q => bias_block V c t q)
    y (((cfg2.win 3).blk t).view.emb y) ?_ ?_
  · show win2_3.index t 0 * 10000 + 1 * (y 0).val = 10000 * t.val + (y 0).val; rw [e6]; omega
  · show win2_3.index t 1 * 64 + 1 * (y 1).val = (y 1).val; rw [e7]; omega

/-- An index of the result array is in point `t`'s block iff each coordinate is in the block's range on its axis. -/
theorem mem_block (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v44).slice (win2_3.rect t)).set ↔ _
  rw [View.set_slice_whole, Rect.mem_set_unit]
  exact Iff.rfl

/-- Every index of the result array is in the block of the point `node / 10000`, which writes back. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  have ht : (i 0).val / 10000 < cfg2.N := by rw [hN]; omega
  refine ⟨⟨(i 0).val / 10000, ht⟩, flush2_3 _, ?_⟩
  rw [mem_block]
  obtain ⟨-, -, -, -, -, -, e6, e7⟩ := block_indices ⟨(i 0).val / 10000, ht⟩
  intro a
  match a with
  | ⟨0, _⟩ =>
    show win2_3.index ⟨(i 0).val / 10000, ht⟩ 0 * 10000 ≤ (i 0).val ∧ (i 0).val < win2_3.index ⟨(i 0).val / 10000, ht⟩ 0 * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ 1 * 64 ≤ (i 1).val ∧ (i 1).val < win2_3.index ⟨(i 0).val / 10000, ht⟩ 1 * 64 + 64
    rw [e7]; omega

/-- THE RESULT ARRAY after the region: the layer's function of the arrays the region found. -/
theorem result (c : Dev nD) : (dat2 V c).arrAt 3 cfg2.N = affineRow (V c main_v42) (V c main_arg8) (V c main_v43) :=
  (dat2 V c).arrAt_eq_of_cover 3 _ (fun t _ => flushed_eq V c t) covered

end Cert.KernelIdeal.Region2

end
-- ==== Proof.Aggregate.lean ====
/-
  The aggregation step both programs share: a weighted sum of neighbours' features.

  For an edge list (sources `src`, destinations `dst`, weights `w`, 1.6 million edges) and node features `h`, the
  message of edge `j` is row `src j` of `h` (a negative source index read from the end of the array, as array
  indexing does) scaled by `w j`, and the result's row `n` is the sum of the messages of the edges whose destination is
  `n`, starting from zero. Both programs compute it by the same operations in the same order — a gather of rows, a
  product with the broadcast weights, a scatter-add into a zero array — so the certificate carries it as ONE function of
  `(h, src, dst, w)` and never opens it: equal features going in give equal aggregates coming out.
-/
import proofs.«176578_j19782619365925_1_alg».proof.Proof.Gen.KernelIdeal

noncomputable section

open Idealize.ShloMosaic

namespace Cert.KernelIdeal.Graph

open Cert.KernelIdeal Cert.KernelIdeal.Gen

variable {F : FTy → Type} [FloatOps F]

/-- The weighted neighbour sum, as the chain of host operations both programs run. -/
def aggregate (h : (⟨S100000x128, .f32⟩ : BufTy).Contents (Elt F)) (src dst : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (mulf
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 w)))

end Cert.KernelIdeal.Graph

end
-- ==== Proof.KernelValue.lean ====
/-
  The kernel's result as three layers over the shared aggregation.

  The buffers' contents at the seven boundaries of the run are a fold from the launch memory. Walking it forward:

  * the arguments are written by nothing, so at every boundary an argument's buffer holds its launch contents;
  * each stretch of host operations leaves, in the next region's features buffer, the shared aggregation of the features
    before it (the first from the argument, the later ones from the region before) with the edge lists and weights, and
    in the bias-row buffer the bias argument cast to a `1 × e` row, whose entry `(0, q)` is the bias's entry `q`;
  * each region leaves, in its result buffer, the layer's function of the features, weights and bias row it found —
    rectified for the first two layers.

  So the last region's result buffer ends at
  `affine (agg (relu (affine (agg (relu (affine (agg x) W₁ b₁))) W₂ b₂))) W₃ b₃`, the arguments read at launch.
-/
import proofs.«176578_j19782619365925_1_alg».proof.Proof.Region0
import proofs.«176578_j19782619365925_1_alg».proof.Proof.Region1
import proofs.«176578_j19782619365925_1_alg».proof.Proof.Region2
import proofs.«176578_j19782619365925_1_alg».proof.Proof.Aggregate
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.StableHlo (after_cons after_nil)

namespace Cert.KernelIdeal.Layers

open Cert.KernelIdeal Cert.KernelIdeal.Gen Cert.Layer Idealize.ShloMosaic.StableHlo
open Cert.KernelIdeal.Graph (aggregate)

variable (m : (ℓ : Loc nD τ sig) → Buf (Elt Ideal) ℓ) (ρ : Dev nD → PrngReg)

/-! ### The arguments at each boundary: their launch contents -/

theorem W1_main_arg1 (c : Dev nD) : W1 m ρ c (Proc.devRef .tc main_arg1) = m ((c : Thread nD τ).loc main_arg1) := by
  show StableHlo.after hostOps0 (W0 m ρ c) (Proc.devRef .tc main_arg1) = _
  after_results
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) := by
  show StableHlo.after hostOps1 (W2 m ρ c) (Proc.devRef .tc main_arg1) = _
  after_results
  exact W2_main_arg1 m ρ c
theorem W4_main_arg1 (c : Dev nD) : W4 m ρ c (Proc.devRef .tc main_arg1) = m ((c : Thread nD τ).loc main_arg1) :=
  (W4_of_ne m ρ c main_arg1 (by decide)).trans (W3_main_arg1 m ρ c)
theorem W1_main_arg2 (c : Dev nD) : W1 m ρ c (Proc.devRef .tc main_arg2) = m ((c : Thread nD τ).loc main_arg2) := by
  show StableHlo.after hostOps0 (W0 m ρ c) (Proc.devRef .tc main_arg2) = _
  after_results
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) := by
  show StableHlo.after hostOps1 (W2 m ρ c) (Proc.devRef .tc main_arg2) = _
  after_results
  exact W2_main_arg2 m ρ c
theorem W4_main_arg2 (c : Dev nD) : W4 m ρ c (Proc.devRef .tc main_arg2) = m ((c : Thread nD τ).loc main_arg2) :=
  (W4_of_ne m ρ c main_arg2 (by decide)).trans (W3_main_arg2 m ρ c)
theorem W1_main_arg3 (c : Dev nD) : W1 m ρ c (Proc.devRef .tc main_arg3) = m ((c : Thread nD τ).loc main_arg3) := by
  show StableHlo.after hostOps0 (W0 m ρ c) (Proc.devRef .tc main_arg3) = _
  after_results
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) := by
  show StableHlo.after hostOps1 (W2 m ρ c) (Proc.devRef .tc main_arg3) = _
  after_results
  exact W2_main_arg3 m ρ c
theorem W4_main_arg3 (c : Dev nD) : W4 m ρ c (Proc.devRef .tc main_arg3) = m ((c : Thread nD τ).loc main_arg3) :=
  (W4_of_ne m ρ c main_arg3 (by decide)).trans (W3_main_arg3 m ρ c)
theorem W1_main_arg4 (c : Dev nD) : W1 m ρ c (Proc.devRef .tc main_arg4) = m ((c : Thread nD τ).loc main_arg4) := by
  show StableHlo.after hostOps0 (W0 m ρ c) (Proc.devRef .tc main_arg4) = _
  after_results
theorem W1_main_arg5 (c : Dev nD) : W1 m ρ c (Proc.devRef .tc main_arg5) = m ((c : Thread nD τ).loc main_arg5) := by
  show StableHlo.after hostOps0 (W0 m ρ c) (Proc.devRef .tc main_arg5) = _
  after_results
theorem W1_main_arg6 (c : Dev nD) : W1 m ρ c (Proc.devRef .tc main_arg6) = m ((c : Thread nD τ).loc main_arg6) := by
  show StableHlo.after hostOps0 (W0 m ρ c) (Proc.devRef .tc main_arg6) = _
  after_results
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) := by
  show StableHlo.after hostOps1 (W2 m ρ c) (Proc.devRef .tc main_arg6) = _
  after_results
  exact W2_main_arg6 m ρ c
theorem W1_main_arg7 (c : Dev nD) : W1 m ρ c (Proc.devRef .tc main_arg7) = m ((c : Thread nD τ).loc main_arg7) := by
  show StableHlo.after hostOps0 (W0 m ρ c) (Proc.devRef .tc main_arg7) = _
  after_results
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) := by
  show StableHlo.after hostOps1 (W2 m ρ c) (Proc.devRef .tc main_arg7) = _
  after_results
  exact W2_main_arg7 m ρ c
theorem W1_main_arg8 (c : Dev nD) : W1 m ρ c (Proc.devRef .tc main_arg8) = m ((c : Thread nD τ).loc main_arg8) := by
  show StableHlo.after hostOps0 (W0 m ρ c) (Proc.devRef .tc main_arg8) = _
  after_results
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) := by
  show StableHlo.after hostOps1 (W2 m ρ c) (Proc.devRef .tc main_arg8) = _
  after_results
  exact W2_main_arg8 m ρ c
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) := by
  show StableHlo.after hostOps2 (W4 m ρ c) (Proc.devRef .tc main_arg8) = _
  after_results
  exact W4_main_arg8 m ρ c
theorem W1_main_arg9 (c : Dev nD) : W1 m ρ c (Proc.devRef .tc main_arg9) = m ((c : Thread nD τ).loc main_arg9) := by
  show StableHlo.after hostOps0 (W0 m ρ c) (Proc.devRef .tc main_arg9) = _
  after_results
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) := by
  show StableHlo.after hostOps1 (W2 m ρ c) (Proc.devRef .tc main_arg9) = _
  after_results
  exact W2_main_arg9 m ρ c
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) := by
  show StableHlo.after hostOps2 (W4 m ρ c) (Proc.devRef .tc main_arg9) = _
  after_results
  exact W4_main_arg9 m ρ c

/-! ### Layer 1 -/

set_option maxHeartbeats 8000000 in
/-- The first region's features: the aggregation of the features argument. -/
theorem features1 (c : Dev nD) : V1 m ρ c main_v12 = aggregate (F := Ideal) (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v12) = _
  after_results_simp
  rfl
/-- Its bias row's entry `(0, q)` is the first bias's entry `q`. -/
theorem bias1 (c : Dev nD) (q : Fin 128) :
    (V1 m ρ c main_v13 : S1x128.Idx → EReal) (ix2 (0 : Fin 1) q) = ((m ((c : Thread nD τ).loc main_arg5)) : S128.Idx → EReal) (ix1 q) := by
  have e : V1 m ρ c main_v13 = shapeCast S1x128 (m ((c : Thread nD τ).loc main_arg5)) shapeCasts_S128_S1x128 := by
    show StableHlo.after hostOps0 (W0 m ρ c) (Proc.devRef .tc main_v13) = _
    after_results
    rfl
  rw [e]
  exact shapeCast_a_1a_apply _ _ 0 q
/-- After the first region its result buffer holds layer 1 of the arguments. -/
theorem layer1 (c : Dev nD) : (W2 m ρ c (Proc.devRef .tc main_v14) : S100000x128.Idx → EReal) = (relu (affine (aggregate (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)))) := by
  refine (W2_arr m ρ c 3).trans ?_
  rw [Region0.result (V1 m ρ) c, features1 m ρ c]
  refine congrArg relu (affineRow_eq _ _ _ _ (bias1 m ρ c)) |>.trans ?_
  show relu (affine _ (W1 m ρ c (Proc.devRef .tc main_arg4)) _) = _
  rw [W1_main_arg4 m ρ c]

/-! ### Layer 2 -/

set_option maxHeartbeats 8000000 in
theorem features2 (c : Dev nD) : V3 m ρ c main_v27 = aggregate (F := Ideal) (relu (affine (aggregate (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)))) (m ((c : Thread nD τ).loc main_arg1)) (m ((c : Thread nD τ).loc main_arg2)) (m ((c : Thread nD τ).loc main_arg3)) := by
  show StableHlo.after hostOps1 (W2 m ρ c) (Proc.devRef .tc main_v27) = _
  after_results_simp
  rw [layer1 m ρ c, W2_main_arg1 m ρ c, W2_main_arg2 m ρ c, W2_main_arg3 m ρ c]
  rfl
theorem bias2 (c : Dev nD) (q : Fin 128) :
    (V3 m ρ c main_v28 : S1x128.Idx → EReal) (ix2 (0 : Fin 1) q) = ((m ((c : Thread nD τ).loc main_arg7)) : S128.Idx → EReal) (ix1 q) := by
  have e : V3 m ρ c main_v28 = shapeCast S1x128 (m ((c : Thread nD τ).loc main_arg7)) shapeCasts_S128_S1x128 := by
    show StableHlo.after hostOps1 (W2 m ρ c) (Proc.devRef .tc main_v28) = _
    after_results
    rw [W2_main_arg7 m ρ c]
    rfl
  rw [e]
  exact shapeCast_a_1a_apply _ _ 0 q
theorem layer2 (c : Dev nD) : (W4 m ρ c (Proc.devRef .tc main_v29) : S100000x128.Idx → EReal) = (relu (affine (aggregate (F := Ideal) (relu (affine (aggregate (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)))) (m ((c : Thread nD τ).loc main_arg1)) (m ((c : Thread nD τ).loc main_arg2)) (m ((c : Thread nD τ).loc main_arg3))) (m ((c : Thread nD τ).loc main_arg6)) (m ((c : Thread nD τ).loc main_arg7)))) := by
  refine (W4_arr m ρ c 3).trans ?_
  rw [Region1.result (V3 m ρ) c, features2 m ρ c]
  refine congrArg relu (affineRow_eq _ _ _ _ (bias2 m ρ c)) |>.trans ?_
  show relu (affine _ (W3 m ρ c (Proc.devRef .tc main_arg6)) _) = _
  rw [W3_main_arg6 m ρ c]

/-! ### Layer 3 -/

set_option maxHeartbeats 8000000 in
theorem features3 (c : Dev nD) : V5 m ρ c main_v42 = aggregate (F := Ideal) (relu (affine (aggregate (F := Ideal) (relu (affine (aggregate (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)))) (m ((c : Thread nD τ).loc main_arg1)) (m ((c : Thread nD τ).loc main_arg2)) (m ((c : Thread nD τ).loc main_arg3))) (m ((c : Thread nD τ).loc main_arg6)) (m ((c : Thread nD τ).loc main_arg7)))) (m ((c : Thread nD τ).loc main_arg1)) (m ((c : Thread nD τ).loc main_arg2)) (m ((c : Thread nD τ).loc main_arg3)) := by
  show StableHlo.after hostOps2 (W4 m ρ c) (Proc.devRef .tc main_v42) = _
  after_results_simp
  rw [layer2 m ρ c, W4_main_arg1 m ρ c, W4_main_arg2 m ρ c, W4_main_arg3 m ρ c]
  rfl
theorem bias3 (c : Dev nD) (q : Fin 64) :
    (V5 m ρ c main_v43 : S1x64.Idx → EReal) (ix2 (0 : Fin 1) q) = ((m ((c : Thread nD τ).loc main_arg9)) : S64.Idx → EReal) (ix1 q) := by
  have e : V5 m ρ c main_v43 = shapeCast S1x64 (m ((c : Thread nD τ).loc main_arg9)) shapeCasts_S64_S1x64 := by
    show StableHlo.after hostOps2 (W4 m ρ c) (Proc.devRef .tc main_v43) = _
    after_results
    rw [W4_main_arg9 m ρ c]
    rfl
  rw [e]
  exact shapeCast_a_1a_apply _ _ 0 q
/-- THE RESULT: after the last region the result buffer holds the three layers of the arguments. -/
theorem result (c : Dev nD) : (W6 m ρ c (Proc.devRef .tc main_v44) : S100000x64.Idx → EReal) = (affine (aggregate (F := Ideal) (relu (affine (aggregate (F := Ideal) (relu (affine (aggregate (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)))) (m ((c : Thread nD τ).loc main_arg1)) (m ((c : Thread nD τ).loc main_arg2)) (m ((c : Thread nD τ).loc main_arg3))) (m ((c : Thread nD τ).loc main_arg6)) (m ((c : Thread nD τ).loc main_arg7)))) (m ((c : Thread nD τ).loc main_arg1)) (m ((c : Thread nD τ).loc main_arg2)) (m ((c : Thread nD τ).loc main_arg3))) (m ((c : Thread nD τ).loc main_arg8)) (m ((c : Thread nD τ).loc main_arg9))) := by
  refine (W6_arr m ρ c 3).trans ?_
  rw [Region2.result (V5 m ρ) c, features3 m ρ c]
  refine (affineRow_eq _ _ _ _ (bias3 m ρ c)).trans ?_
  show affine _ (W5 m ρ c (Proc.devRef .tc main_arg8)) _ = _
  rw [W5_main_arg8 m ρ c]

end Cert.KernelIdeal.Layers

end
-- ==== Proof.RefValue.lean ====
/-
  The reference program's result as three layers over the shared aggregation.

  The reference's operations, read one at a time: each dense stage is a `dot_general` of the aggregated features with
  the layer's weights (at `(p, q)` the sum over the 128 contracted channels of row `p` against column `q`), plus the
  bias broadcast along the rows, and for the first two layers a maximum with a zero splat — the layer's affine map
  followed by the rectifier. Each aggregation stage is the shared chain of gather, product and scatter-add, by
  unfolding the stages' names. Composed: the result is
  `affine (agg (relu (affine (agg (relu (affine (agg x) W₁ b₁))) W₂ b₂))) W₃ b₃`.
-/
import proofs.«176578_j19782619365925_1_alg».proof.Proof.Gen.ReferenceIdeal.Read
import proofs.«176578_j19782619365925_1_alg».proof.Proof.Layer
import proofs.«176578_j19782619365925_1_alg».proof.Proof.Aggregate

noncomputable section

open scoped BigOperators
open Idealize.ShloMosaic Idealize.ShloMosaic.ValueIdx

namespace Cert.ReferenceIdeal.Layers

open Cert.ReferenceIdeal Cert.ReferenceIdeal.Read Cert.Layer
open Cert.KernelIdeal.Graph (aggregate)

/-! ### The three aggregations are the shared function -/

theorem aggregation1 (x0 : (⟨S100000x128, .f32⟩ : BufTy).Contents (Elt Ideal)) (x1 x2 : (⟨S1600000, .i32⟩ : BufTy).Contents (Elt Ideal)) (x3 : (⟨S1600000, .f32⟩ : BufTy).Contents (Elt Ideal)) :
    val_main_v12 (F := Ideal) x0 x1 x2 x3 = aggregate (F := Ideal) x0 x1 x2 x3 := rfl
theorem aggregation2 (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) :
    val_main_v31 (F := Ideal) x0 x1 x2 x3 x4 x5 = aggregate (F := Ideal) (val_main_v18 (F := Ideal) x0 x1 x2 x3 x4 x5) x1 x2 x3 := rfl
theorem aggregation3 (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v50 (F := Ideal) x0 x1 x2 x3 x4 x5 x6 x7 = aggregate (F := Ideal) (val_main_v37 (F := Ideal) x0 x1 x2 x3 x4 x5 x6 x7) x1 x2 x3 := rfl

/-! ### The three dense stages are the layer's function -/

/-- layer1: the host's `dot_general`, bias broadcast and add, and maximum with the zero splat, read at `(p, q)`, are the
    layer's rectified affine map of the stage before it. -/
theorem layer1 (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) :
    val_main_v18 (F := Ideal) x0 x1 x2 x3 x4 x5 = relu (affine (val_main_v12 (F := Ideal) x0 x1 x2 x3) x4 x5) := by
  funext i
  obtain ⟨p, q, rfl⟩ : ∃ (p : Fin 100000) (q : Fin 128), i = ix2 p q := ⟨i 0, i 1, eq_ix2 i⟩
  have el : ∀ k : Fin 128, lidx_main_v13 (ix2 p q) k = ix2 p k := fun k => funext fun a => by
    match a with
    | ⟨0, _⟩ => rfl
    | ⟨1, _⟩ => rfl
  have er : ∀ k : Fin 128, ridx_main_v13 (ix2 p q) k = ix2 k q := fun k => funext fun a => by
    match a with
    | ⟨0, _⟩ => rfl
    | ⟨1, _⟩ => rfl
  have eb : idx_main_v14 (idx_main_v15 (ix2 p q)) = ix1 q := funext fun a => by
    match a with
    | ⟨0, _⟩ => rfl
  rw [val_main_v18_apply, val_main_v17_apply, val_main_cst_1_apply, val_main_v16_apply, val_main_v13_apply, val_main_v15_apply, val_main_v14_apply, eb, relu_apply, affine_apply]
  simp only [el, er, Ideal.maximumf_def, Ideal.ofBits_def, Ideal.ofBits_zero_f32, Ideal.addf_def]

/-- layer2: the host's `dot_general`, bias broadcast and add, and maximum with the zero splat, read at `(p, q)`, are the
    layer's rectified affine map of the stage before it. -/
theorem layer2 (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v37 (F := Ideal) x0 x1 x2 x3 x4 x5 x6 x7 = relu (affine (val_main_v31 (F := Ideal) x0 x1 x2 x3 x4 x5) x6 x7) := by
  funext i
  obtain ⟨p, q, rfl⟩ : ∃ (p : Fin 100000) (q : Fin 128), i = ix2 p q := ⟨i 0, i 1, eq_ix2 i⟩
  have el : ∀ k : Fin 128, lidx_main_v32 (ix2 p q) k = ix2 p k := fun k => funext fun a => by
    match a with
    | ⟨0, _⟩ => rfl
    | ⟨1, _⟩ => rfl
  have er : ∀ k : Fin 128, ridx_main_v32 (ix2 p q) k = ix2 k q := fun k => funext fun a => by
    match a with
    | ⟨0, _⟩ => rfl
    | ⟨1, _⟩ => rfl
  have eb : idx_main_v33 (idx_main_v34 (ix2 p q)) = ix1 q := funext fun a => by
    match a with
    | ⟨0, _⟩ => rfl
  rw [val_main_v37_apply, val_main_v36_apply, val_main_cst_5_apply, val_main_v35_apply, val_main_v32_apply, val_main_v34_apply, val_main_v33_apply, eb, relu_apply, affine_apply]
  simp only [el, er, Ideal.maximumf_def, Ideal.ofBits_def, Ideal.ofBits_zero_f32, Ideal.addf_def]

/-- layer3: the host's `dot_general`, bias broadcast and add read at `(p, q)`, are the
    layer's affine map of the stage before it. -/
theorem layer3 (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) :
    val_main_v54 (F := Ideal) x0 x1 x2 x3 x4 x5 x6 x7 x8 x9 = affine (val_main_v50 (F := Ideal) x0 x1 x2 x3 x4 x5 x6 x7) x8 x9 := by
  funext i
  obtain ⟨p, q, rfl⟩ : ∃ (p : Fin 100000) (q : Fin 64), i = ix2 p q := ⟨i 0, i 1, eq_ix2 i⟩
  have el : ∀ k : Fin 128, lidx_main_v51 (ix2 p q) k = ix2 p k := fun k => funext fun a => by
    match a with
    | ⟨0, _⟩ => rfl
    | ⟨1, _⟩ => rfl
  have er : ∀ k : Fin 128, ridx_main_v51 (ix2 p q) k = ix2 k q := fun k => funext fun a => by
    match a with
    | ⟨0, _⟩ => rfl
    | ⟨1, _⟩ => rfl
  have eb : idx_main_v52 (idx_main_v53 (ix2 p q)) = ix1 q := funext fun a => by
    match a with
    | ⟨0, _⟩ => rfl
  rw [val_main_v54_apply, val_main_v51_apply, val_main_v53_apply, val_main_v52_apply, eb, affine_apply]
  simp only [el, er, Ideal.addf_def]

/-! ### Composed -/

/-- The reference's result: three layers, each over the aggregation of the one before. -/
theorem result (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) :
    val_main_v54 (F := Ideal) x0 x1 x2 x3 x4 x5 x6 x7 x8 x9
      = affine (aggregate (F := Ideal) (relu (affine (aggregate (F := Ideal) (relu (affine (aggregate (F := Ideal) x0 x1 x2 x3) x4 x5)) x1 x2 x3) x6 x7)) x1 x2 x3) x8 x9 := by
  rw [layer3, aggregation3, layer2, aggregation2, layer1, aggregation1]

end Cert.ReferenceIdeal.Layers

end
-- ==== Proof.lean ====
/-
  A three-layer graph network: a tiled kernel against its plain reference, equal over the extended reals.

  Both programs compute, from node features `x` (100000 nodes × 128 channels), an edge list with weights and three
  weight matrices and biases,

      z = affine (agg (relu (affine (agg (relu (affine (agg x) W₁ b₁))) W₂ b₂))) W₃ b₃,

  where `agg h` is the weighted sum of neighbours' rows of `h` (the SAME chain of gather, product and scatter-add in
  both programs: carried as one function, never opened), `affine h W b (p, q) = (∑ k < 128, h (p, k) · W (k, q)) + b q`
  and `relu y = max y 0`.

  The reference computes each `affine` with one whole `dot_general`. The kernel computes it in a region of ten grid
  points, each taking 10000 node rows, rounding them and the weights to a narrower float format, multiplying them on
  the matrix unit into a zero accumulator and adding the bias row. At the exact reading of the floats the rounding is
  the identity and `0 + ∑ = ∑`; a row of the product depends on the same row of the features only, so the ten written
  blocks are the restrictions of the one whole-array function, and they tile the result. No step moves a factor across a
  sum or cancels anything, so the inputs' finiteness is never used.

  The three frames: the kernel's at both float readings by the generated frame of the six-segment run; the
  reference's by its run with the result dropped. The kernel's idealization rewrote nothing, so `preserves` asks nothing.
-/
import proofs.«176578_j19782619365925_1_alg».proof.Defs
import proofs.«176578_j19782619365925_1_alg».proof.Proof.Gen.Kernel
import proofs.«176578_j19782619365925_1_alg».proof.Proof.Gen.Kernel.Frame
import proofs.«176578_j19782619365925_1_alg».proof.Proof.Gen.KernelIdeal
import proofs.«176578_j19782619365925_1_alg».proof.Proof.Gen.KernelIdeal.Frame
import proofs.«176578_j19782619365925_1_alg».proof.Proof.Gen.ReferenceIdeal
import proofs.«176578_j19782619365925_1_alg».proof.Proof.Gen.ReferenceIdeal.Run
import proofs.«176578_j19782619365925_1_alg».proof.Proof.Gen.ReferenceIdeal.Read
import proofs.«176578_j19782619365925_1_alg».proof.Proof.Gen.Pre_finite_inputs
import proofs.«176578_j19782619365925_1_alg».proof.Proof.KernelRun
import proofs.«176578_j19782619365925_1_alg».proof.Proof.KernelValue
import proofs.«176578_j19782619365925_1_alg».proof.Proof.RefValue

noncomputable section

open Idealize.ShloMosaic Idealize.ShloMosaic.TcCoe Idealize.SL.Sem

namespace Cert.KernelIdeal.Layers

open Cert.KernelIdeal Cert.KernelIdeal.Gen Cert.Layer
open Cert.KernelIdeal.Graph (aggregate)

/-- The kernel's run at the exact reading: the result ends at the three layers of the launch arguments, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v44)
        = affine (aggregate (F := Ideal) (relu (affine (aggregate (F := Ideal) (relu (affine (aggregate (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)))) (m ((c : Thread nD τ).loc main_arg1)) (m ((c : Thread nD τ).loc main_arg2)) (m ((c : Thread nD τ).loc main_arg3))) (m ((c : Thread nD τ).loc main_arg6)) (m ((c : Thread nD τ).loc main_arg7)))) (m ((c : Thread nD τ).loc main_arg1)) (m ((c : Thread nD τ).loc main_arg2)) (m ((c : Thread nD τ).loc main_arg3))) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result m ρ c), (h c).2⟩) (Cert.KernelIdeal.Whole.run (F := Ideal) m ρ)

end Cert.KernelIdeal.Layers

namespace Cert.Proof

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end, from arguments that agree, at the same three layers of those arguments. -/
theorem algebraic : Cert.algebraic_KernelIdeal_ReferenceIdeal := by
  intro m ρ m' ρ' _ hagree
  refine ⟨_, Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v54_eq, Cert.ReferenceIdeal.Layers.result, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
